-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_5" .f32 0x3E4CCCCD#32 ((1 / 5 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x5x128 : Shape := ⟨3, ![65536, 5, 128]⟩
abbrev S256x128 : Shape := ⟨2, ![256, 128]⟩
abbrev S_ : Shape := ⟨0, ![]⟩

class Facts : Prop where
  bcast_S_S65536x5x128 : S_.BroadcastsInDim S65536x5x128 (![] : Fin 0 → Fin S65536x5x128.rank)
  reducesTo_S65536x5x128_S_d0_1_2 : S65536x5x128.ReducesTo [0, 1, 2] S_
  h_S_ : 0 < S_.numel
  bcast_S_S256x128 : S_.BroadcastsInDim S256x128 (![] : Fin 0 → Fin S256x128.rank)
  reducesTo_S256x128_S_d0_1 : S256x128.ReducesTo [0, 1] S_
  reducesTo_S_S_d : S_.ReducesTo [] S_

variable [Facts]

def fn {F : FTy → Type} [FloatOps F] (main_arg0 : FVec F S65536x5x128 .f32) (main_arg1 : FVec F S256x128 .f32) (main_arg2 : FVec F S_ .f32) : IVec S_ 1 :=
  let main_v0 : FVec F S65536x5x128 .f32 := Host.absf main_arg0
  let main_cst : FVec F S_ .f32 := constant S_ .f32 0x7F800000#32
  let main_v1 : FVec F S65536x5x128 .f32 := broadcastInDim S65536x5x128 ![] bcast_S_S65536x5x128 main_cst
  let main_v2 : IVec S65536x5x128 1 := cmpf .olt main_v0 main_v1
  let main_c : IVec S_ 1 := constantI S_ 1 1#1
  let main_v3 : IVec S_ 1 := (fun x v => Host.reduce IntOp.andi x v reducesTo_S65536x5x128_S_d0_1_2 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S_ .f32 := Host.absf main_arg2
  let main_cst_2 : FVec F S_ .f32 := constant S_ .f32 0x7F800000#32
  let main_v10 : IVec S_ 1 := cmpf .olt main_v9 main_cst_2
  let main_c_3 : IVec S_ 1 := constantI S_ 1 1#1
  let main_v11 : IVec S_ 1 := (fun x v => Host.reduce IntOp.andi x v reducesTo_S_S_d h_S_) main_v10 main_c_3
  let main_v12 : IVec S_ 1 := andi main_v8 main_v11
  main_v12
-- ==== Kernel.lean ====
abbrev S65536x5x128 : Shape := ⟨3, ![65536, 5, 128]⟩
abbrev S256x128 : Shape := ⟨2, ![256, 128]⟩
abbrev S_ : Shape := ⟨0, ![]⟩
abbrev S65536x640 : Shape := ⟨2, ![65536, 640]⟩
abbrev S65536x128 : Shape := ⟨2, ![65536, 128]⟩
abbrev S1024x640 : Shape := ⟨2, ![1024, 640]⟩
abbrev S1024x128 : Shape := ⟨2, ![1024, 128]⟩
abbrev S1024x256 : Shape := ⟨2, ![1024, 256]⟩
abbrev S1024 : Shape := ⟨1, ![1024]⟩
abbrev S1024x1 : Shape := ⟨2, ![1024, 1]⟩

abbrev nBuf : Space → Nat
  | .hbm => 8
  | .vmem => 5
  | .smem => 0
  | _ => 0

abbrev bufTy : (tb : Table) → Fin (tcTables nBuf tb) → BufTy
  | .hbm, ⟨0, _⟩ => ⟨S65536x5x128, .f32⟩
  | .hbm, ⟨1, _⟩ => ⟨S256x128, .f32⟩
  | .hbm, ⟨2, _⟩ => ⟨S_, .f32⟩
  | .hbm, ⟨3, _⟩ => ⟨S65536x640, .f32⟩
  | .hbm, ⟨4, _⟩ => ⟨S256x128, .f32⟩
  | .hbm, ⟨5, _⟩ => ⟨S256x128, .f32⟩
  | .hbm, ⟨6, _⟩ => ⟨S256x128, .bf16⟩
  | .hbm, ⟨7, _⟩ => ⟨S65536x128, .f32⟩
  | .local _ .vmem, ⟨0, _⟩ => ⟨S1024x640, .f32⟩
  | .local _ .vmem, ⟨1, _⟩ => ⟨S1024x640, .f32⟩
  | .local _ .vmem, ⟨2, _⟩ => ⟨S256x128, .bf16⟩
  | .local _ .vmem, ⟨3, _⟩ => ⟨S1024x128, .f32⟩
  | .local _ .vmem, ⟨4, _⟩ => ⟨S1024x128, .f32⟩
  | _, _ => ⟨S65536x5x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S65536x5x128_S65536x640 : S65536x5x128.ShapeCasts S65536x640
  bcast_S_S256x128 : S_.BroadcastsInDim S256x128 (![] : Fin 0 → Fin S256x128.rank)
  bitsLt_bf16_f32 : FTy.bits .bf16 < FTy.bits .f32
  inb_S1024x640_S1024x640_0_0 : ∀ a, (![0, 0] : Fin 2 → Nat) a + S1024x640.size a ≤ S1024x640.size a
  h_S1024x640 : 0 < S1024x640.numel
  shapeCasts_S1024x640_S1024x640 : S1024x640.ShapeCasts S1024x640
  slices_S1024x640_o0_0_S1024x128 : S1024x640.Slices ![0, 0] S1024x128
  slices_S1024x640_o0_128_S1024x128 : S1024x640.Slices ![0, 128] S1024x128
  slices_S1024x640_o0_256_S1024x128 : S1024x640.Slices ![0, 256] S1024x128
  slices_S1024x640_o0_384_S1024x128 : S1024x640.Slices ![0, 384] S1024x128
  slices_S1024x640_o0_512_S1024x128 : S1024x640.Slices ![0, 512] S1024x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  concatenates_S1024x128_S1024x128_S1024x256_d1 : Shape.Concatenates [S1024x128, S1024x128] S1024x256 1
  reduces_S1024x128_S1024 : S1024x128.Reduces [1] S1024
  shapeCasts_S1024_S1024x1 : S1024.ShapeCasts S1024x1
  broadcasts_S1024x1_S1024x128 : S1024x1.Broadcasts S1024x128
  inb_S1024x128_S1024x128_0_0 : ∀ a, (![0, 0] : Fin 2 → Nat) a + S1024x128.size a ≤ S1024x128.size a
  h_S1024x128 : 0 < S1024x128.numel
  dot_S1024x256_S256x128_S1024x128_1_0_0_1_n_n_wf : DotDims.WF S1024x256 S256x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x640.size a ≤ S65536x640.size a
  hwx0_0 : ∀ i : grid0.Coords, EltTy.bits .f32 = 32 ∨ (Rect.block (s := S65536x640) S1024x640.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .bf16 = 32 ∨ (Rect.block (s := S256x128) S256x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S65536x128.size a
  hwx0_2 : ∀ i : grid0.Coords, EltTy.bits .f32 = 32 ∨ (Rect.block (s := S65536x128) S1024x128.size (cc0_transform_2 i) (hinb0_2 i)).WholeWords (EltTy.packing .f32)

variable [Facts₀]

def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf

abbrev win0_0 : Pipeline.Window sig grid0 :=
  Pipeline.Window.ofSpec (Memref.whole main_v0) S1024x640.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S65536x5x128 : Shape := ⟨3, ![65536, 5, 128]⟩
abbrev S256x128 : Shape := ⟨2, ![256, 128]⟩
abbrev S_ : Shape := ⟨0, ![]⟩
abbrev S65536x128 : Shape := ⟨2, ![65536, 128]⟩
abbrev S65536x1x128 : Shape := ⟨3, ![65536, 1, 128]⟩
abbrev S65536x5x256 : Shape := ⟨3, ![65536, 5, 256]⟩
abbrev S65536 : Shape := ⟨1, ![65536]⟩
abbrev S65536x1 : Shape := ⟨2, ![65536, 1]⟩

abbrev nBuf : Space → Nat
  | .hbm => 41
  | .vmem => 0
  | .smem => 0
  | _ => 0

abbrev bufTy : (tb : Table) → Fin (tcTables nBuf tb) → BufTy
  | .hbm, ⟨0, _⟩ => ⟨S65536x5x128, .f32⟩
  | .hbm, ⟨1, _⟩ => ⟨S256x128, .f32⟩
  | .hbm, ⟨2, _⟩ => ⟨S_, .f32⟩
  | .hbm, ⟨3, _⟩ => ⟨S_, .f32⟩
  | .hbm, ⟨4, _⟩ => ⟨S65536x128, .f32⟩
  | .hbm, ⟨5, _⟩ => ⟨S65536x1x128, .f32⟩
  | .hbm, ⟨6, _⟩ => ⟨S_, .f32⟩
  | .hbm, ⟨7, _⟩ => ⟨S65536x1x128, .f32⟩
  | .hbm, ⟨8, _⟩ => ⟨S65536x1x128, .f32⟩
  | .hbm, ⟨9, _⟩ => ⟨S65536x5x128, .f32⟩
  | .hbm, ⟨10, _⟩ => ⟨S65536x5x256, .f32⟩
  | .hbm, ⟨11, _⟩ => ⟨S256x128, .f32⟩
  | .hbm, ⟨12, _⟩ => ⟨S256x128, .f32⟩
  | .hbm, ⟨13, _⟩ => ⟨S65536x5x128, .f32⟩
  | .hbm, ⟨14, _⟩ => ⟨S_, .f32⟩
  | .hbm, ⟨15, _⟩ => ⟨S65536x128, .f32⟩
  | .hbm, ⟨16, _⟩ => ⟨S_, .f32⟩
  | .hbm, ⟨17, _⟩ => ⟨S65536x128, .f32⟩
  | .hbm, ⟨18, _⟩ => ⟨S65536x128, .f32⟩
  | .hbm, ⟨19, _⟩ => ⟨S65536x1x128, .f32⟩
  | .hbm, ⟨20, _⟩ => ⟨S65536x5x128, .f32⟩
  | .hbm, ⟨21, _⟩ => ⟨S65536x5x128, .f32⟩
  | .hbm, ⟨22, _⟩ => ⟨S65536x5x128, .f32⟩
  | .hbm, ⟨23, _⟩ => ⟨S_, .f32⟩
  | .hbm, ⟨24, _⟩ => ⟨S65536x128, .f32⟩
  | .hbm, ⟨25, _⟩ => ⟨S65536x1x128, .f32⟩
  | .hbm, ⟨26, _⟩ => ⟨S65536x5x128, .f32⟩
  | .hbm, ⟨27, _⟩ => ⟨S65536x5x128, .f32⟩
  | .hbm, ⟨28, _⟩ => ⟨S65536x5x128, .f32⟩
  | .hbm, ⟨29, _⟩ => ⟨S_, .f32⟩
  | .hbm, ⟨30, _⟩ => ⟨S65536x128, .f32⟩
  | .hbm, ⟨31, _⟩ => ⟨S65536x128, .f32⟩
  | .hbm, ⟨32, _⟩ => ⟨S_, .f32⟩
  | .hbm, ⟨33, _⟩ => ⟨S65536, .f32⟩
  | .hbm, ⟨34, _⟩ => ⟨S65536x1, .f32⟩
  | .hbm, ⟨35, _⟩ => ⟨S65536x1, .f32⟩
  | .hbm, ⟨36, _⟩ => ⟨S_, .f32⟩
  | .hbm, ⟨37, _⟩ => ⟨S65536x1, .f32⟩
  | .hbm, ⟨38, _⟩ => ⟨S65536x1, .f32⟩
  | .hbm, ⟨39, _⟩ => ⟨S65536x128, .f32⟩
  | .hbm, ⟨40, _⟩ => ⟨S65536x128, .f32⟩
  | _, _ => ⟨S65536x5x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_call0_v0 : Ref sig .tc := ⟨.hbm, 31, rfl⟩
abbrev main_call0_cst : Ref sig .tc := ⟨.hbm, 32, rfl⟩
abbrev main_call0_v1 : Ref sig .tc := ⟨.hbm, 33, rfl⟩
abbrev main_call0_v2 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]

class Facts₀ : Prop where
  reducesTo_S65536x5x128_S65536x128_d1 : S65536x5x128.ReducesTo [1] S65536x128
  h_S_ : 0 < S_.numel
  bcast_S65536x128_S65536x1x128_0_2 : S65536x128.BroadcastsInDim S65536x1x128 (![0, 2] : Fin 2 → Fin S65536x1x128.rank)
  bcast_S_S65536x1x128 : S_.BroadcastsInDim S65536x1x128 (![] : Fin 0 → Fin S65536x1x128.rank)
  bcast_S65536x1x128_S65536x5x128_0_1_2 : S65536x1x128.BroadcastsInDim S65536x5x128 (![0, 1, 2] : Fin 3 → Fin S65536x5x128.rank)
  concatenates_S65536x5x128_S65536x5x128_S65536x5x256_d2 : Shape.Concatenates [S65536x5x128, S65536x5x128] S65536x5x256 2
  bcast_S_S256x128 : S_.BroadcastsInDim S256x128 (![] : Fin 0 → Fin S256x128.rank)
  bcast_S_S65536x128 : S_.BroadcastsInDim S65536x128 (![] : Fin 0 → Fin S65536x128.rank)
  reducesTo_S65536x128_S65536_d1 : S65536x128.ReducesTo [1] S65536
  bcast_S65536_S65536x1_0 : S65536.BroadcastsInDim S65536x1 (![0] : Fin 1 → Fin S65536x1.rank)
  bcast_S_S65536x1 : S_.BroadcastsInDim S65536x1 (![] : Fin 0 → Fin S65536x1.rank)
  bcast_S65536x1_S65536x128_0_1 : S65536x1.BroadcastsInDim S65536x128 (![0, 1] : Fin 2 → Fin S65536x128.rank)
  dot_S65536x5x256_S256x128_S65536x5x128_2_0_01_1_n_n_wf : DotDims.WF S65536x5x256 S256x128 S65536x5x128 [2] [0] [0, 1] [1] [] []

variable [Facts₀]

def dot_S65536x5x256_S256x128_S65536x5x128_2_0_01_1_n_n : DotDims S65536x5x256 S256x128 S65536x5x128 where
  lhsContracting := [2]
  rhsContracting := [0]
  lhsNonContracting := [0, 1]
  rhsNonContracting := [1]
  lhsBatch := []
  rhsBatch := []
  wf := dot_S65536x5x256_S256x128_S65536x5x128_2_0_01_1_n_n_wf

class Facts : Prop extends Facts₀ where

variable [Facts]
-- ==== Proof.Spec.lean ====
/-
  One batch row of the attention pooling, as plain functions on the extended reals.

  A row holds five vectors `x 0 … x 4` of 128 entries. Its mean vector is appended to each of them, the 256 entries
  are contracted with the weight matrix `wb` (the weights with the scalar bias added), which gives five score vectors.
  Column by column the five scores pass through a softmax, the five vectors are averaged with these weights, and the
  pooled vector is divided by the larger of its Euclidean norm and a small constant.

  The row's result is written down twice. `rowK` multiplies the sum of the five vectors by a reciprocal, takes the
  maximum of the scores as four nested binary maxima, and divides the weighted sum ONCE by the sum of the exponentials.
  `rowR` divides the sum of the five vectors by the count, and divides each exponential by their sum BEFORE it
  weights the vectors. Over finite entries the two are the same function (RowLaw.lean).
-/
import Idealize.ShloMosaic.PureOps.Ideal

noncomputable section

namespace Cert.Pool

open Idealize.ShloMosaic

/-- A vector of 128 entries followed by the mean vector: entry `k` of the 256. -/
def cat (xt mean : Fin 128 → EReal) (k : Fin 256) : EReal :=
  if h : k.val < 128 then xt ⟨k.val, h⟩ else mean ⟨k.val - 128, by have := k.isLt; omega⟩

/-- The score of one vector at column `d`: the 256 joined entries against column `d` of the weights. -/
def score (xt mean : Fin 128 → EReal) (wb : Fin 256 → Fin 128 → EReal) (d : Fin 128) : EReal :=
  ∑ k : Fin 256, cat xt mean k * wb k d

/-- The largest of five numbers, as four nested binary maxima. -/
def max5 (a : Fin 5 → EReal) : EReal := max (max (max (max (a 0) (a 1)) (a 2)) (a 3)) (a 4)

/-- The exponential of a score less the largest of the five scores of its column. -/
def ew (A : Fin 5 → Fin 128 → EReal) (t : Fin 5) (d : Fin 128) : EReal :=
  Ideal.exp (A t d - max5 fun s => A s d)

/-- The mean vector as the sum of the five vectors times a reciprocal `c`. -/
def meanK (c : EReal) (x : Fin 5 → Fin 128 → EReal) (k : Fin 128) : EReal :=
  (x 0 k + x 1 k + x 2 k + x 3 k + x 4 k) * c

/-- The mean vector as the sum of the five vectors divided by the count `n`. -/
def meanR (n : EReal) (x : Fin 5 → Fin 128 → EReal) (k : Fin 128) : EReal :=
  Ideal.div (∑ t : Fin 5, x t k) n

/-- The pooled vector: the weighted sum divided once by the sum of the weights. -/
def pooledK (x A : Fin 5 → Fin 128 → EReal) (d : Fin 128) : EReal :=
  Ideal.div (x 0 d * ew A 0 d + x 1 d * ew A 1 d + x 2 d * ew A 2 d + x 3 d * ew A 3 d + x 4 d * ew A 4 d)
    (ew A 0 d + ew A 1 d + ew A 2 d + ew A 3 d + ew A 4 d)

/-- The pooled vector: each weight divided by the sum of the weights first. -/
def pooledR (x A : Fin 5 → Fin 128 → EReal) (d : Fin 128) : EReal :=
  ∑ t : Fin 5, x t d * Ideal.div (ew A t d) (∑ s : Fin 5, ew A s d)

/-- A vector divided by the larger of its Euclidean norm and `eps`. -/
def normalize (eps : EReal) (y : Fin 128 → EReal) (d : Fin 128) : EReal :=
  Ideal.div (y d) (max (Ideal.sqrt (∑ e : Fin 128, y e * y e)) eps)

/-- A row's result with the mean by a reciprocal and one division of the weighted sum. -/
def rowK (c eps : EReal) (x : Fin 5 → Fin 128 → EReal) (wb : Fin 256 → Fin 128 → EReal) : Fin 128 → EReal :=
  normalize eps (pooledK x fun t => score (x t) (meanK c x) wb)

/-- A row's result with the mean by a division and every weight normalised before use. -/
def rowR (n eps : EReal) (x : Fin 5 → Fin 128 → EReal) (wb : Fin 256 → Fin 128 → EReal) : Fin 128 → EReal :=
  normalize eps (pooledR x fun t => score (x t) (meanR n x) wb)

end Cert.Pool

end
-- ==== Proof.KernelRow.lean ====
/-
  The kernel's block arithmetic read at one entry.

  A block of the kernel's first operand has 1024 rows of 640 lanes: a row's five vectors of 128 entries lie side by side,
  vector `t` on lanes `128 t … 128 t + 127`. The body cuts the five lane bands out of the block, forms their mean,
  joins each band with the mean into 256 lanes and multiplies by the 256 × 128 weight block. This module reads those
  steps at a row `p` and a column: each band is the row's vector (`band_at`), the mean is `Pool.meanK`
  (`mean_at`), and a product of a joined pair with the weights is `Pool.score` (`matmul_joined`).
-/
import proofs.«162607_j47261820125624_2_alg».proof.Proof.Spec
import proofs.«162607_j47261820125624_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.Pool.Ker

open Idealize.ShloMosaic Idealize.ShloMosaic.ValueIdx Cert.KernelIdeal Cert.KernelIdeal.Gen Cert.Pool

/-- Entry `k` of vector `t` of row `p` of a block of 640 lanes: lane `128 t + k`. -/
def xrow (P0 : FVec Ideal S1024x640 .f32) (p : Fin 1024) (t : Fin 5) (k : Fin 128) : EReal :=
  P0 (ix2 p ⟨128 * t.val + k.val, by have := t.isLt; have := k.isLt; omega⟩)

/-- The band of 128 lanes that starts at lane `o`, read at `(p, k)`, is the block at `(p, o + k)`. -/
theorem band_at (P0 : FVec Ideal S1024x640 .f32) (o : Nat) (h : S1024x640.Slices ![0, o] S1024x128)
    (p : Fin 1024) (k : Fin 128) (k' : Fin 640) (hk : k'.val = o + k.val) :
    extractStridedSlice S1024x128 ![0, o] (shapeCast S1024x640 P0 Facts₀.shapeCasts_S1024x640_S1024x640) h (ix2 p k)
      = P0 (ix2 p k') := by
  rw [shapeCast_self]
  exact slice2_axis1_apply o P0 h p k k' hk

theorem band0_at (P0 : FVec Ideal S1024x640 .f32) (p : Fin 1024) (k : Fin 128) :
    k0_pay3 (F := Ideal) P0 (ix2 p k) = xrow P0 p 0 k := by
  unfold k0_pay3 k0_pay2
  exact band_at P0 0 _ p k _ (by show 128 * 0 + k.val = 0 + k.val; omega)

theorem band1_at (P0 : FVec Ideal S1024x640 .f32) (p : Fin 1024) (k : Fin 128) :
    k0_pay4 (F := Ideal) P0 (ix2 p k) = xrow P0 p 1 k := by
  unfold k0_pay4 k0_pay2
  exact band_at P0 128 _ p k _ (by show 128 * 1 + k.val = 128 + k.val; omega)

theorem band2_at (P0 : FVec Ideal S1024x640 .f32) (p : Fin 1024) (k : Fin 128) :
    k0_pay5 (F := Ideal) P0 (ix2 p k) = xrow P0 p 2 k := by
  unfold k0_pay5 k0_pay2
  exact band_at P0 256 _ p k _ (by show 128 * 2 + k.val = 256 + k.val; omega)

theorem band3_at (P0 : FVec Ideal S1024x640 .f32) (p : Fin 1024) (k : Fin 128) :
    k0_pay6 (F := Ideal) P0 (ix2 p k) = xrow P0 p 3 k := by
  unfold k0_pay6 k0_pay2
  exact band_at P0 384 _ p k _ (by show 128 * 3 + k.val = 384 + k.val; omega)

theorem band4_at (P0 : FVec Ideal S1024x640 .f32) (p : Fin 1024) (k : Fin 128) :
    k0_pay7 (F := Ideal) P0 (ix2 p k) = xrow P0 p 4 k := by
  unfold k0_pay7 k0_pay2
  exact band_at P0 512 _ p k _ (by show 128 * 4 + k.val = 512 + k.val; omega)

/-- The reciprocal the kernel multiplies the sum of the five vectors by: its named constant. -/
abbrev recip : EReal := Named.named (F := Ideal) κ "inv_5" (φ := .f32) 0x3E4CCCCD#32

/-- The mean band at `(p, k)`: the five vectors' entries added, times the reciprocal. -/
theorem mean_at (P0 : FVec Ideal S1024x640 .f32) (p : Fin 1024) (k : Fin 128) :
    k0_pay8 (F := Ideal) P0 (ix2 p k) = meanK recip (xrow P0 p) k := by
  unfold k0_pay8
  show (k0_pay3 (F := Ideal) P0 (ix2 p k) + k0_pay4 (F := Ideal) P0 (ix2 p k) + k0_pay5 (F := Ideal) P0 (ix2 p k)
      + k0_pay6 (F := Ideal) P0 (ix2 p k) + k0_pay7 (F := Ideal) P0 (ix2 p k)) * recip = _
  rw [band0_at, band1_at, band2_at, band3_at, band4_at]
  rfl

/-! ## The product of a joined pair with the weights -/

abbrev D := dot_S1024x256_S256x128_S1024x128_1_0_0_1_n_n

theorem lhs_row (j : S1024x128.Idx) (q : D.contr.Idx) : (D.lhsIdx j q 0).val = (j 0).val := by
  unfold DotDims.lhsIdx
  rw [dif_neg (show ¬(0 : Fin S1024x256.rank) ∈ D.lhsBatch by decide),
    dif_pos (show (0 : Fin S1024x256.rank) ∈ D.lhsNonContracting by decide)]
  rfl

theorem lhs_lane (j : S1024x128.Idx) (q : D.contr.Idx) : (D.lhsIdx j q 1).val = (q ⟨0, by decide⟩).val :=
  D.lhsIdx_val_of_single rfl j q

theorem rhs_row (j : S1024x128.Idx) (q : D.contr.Idx) : (D.rhsIdx j q 0).val = (q ⟨0, by decide⟩).val :=
  D.rhsIdx_val_of_single rfl j q

theorem rhs_col (j : S1024x128.Idx) (q : D.contr.Idx) : (D.rhsIdx j q 1).val = (j 1).val := by
  unfold DotDims.rhsIdx
  rw [dif_neg (show ¬(1 : Fin S256x128.rank) ∈ D.rhsBatch by decide),
    dif_pos (show (1 : Fin S256x128.rank) ∈ D.rhsNonContracting by decide)]
  rfl

/-- Two bands of 128 lanes joined along the lanes, read at `(p, k)`: `Pool.cat` of the two rows. -/
theorem joined_at (V Mn : FVec Ideal S1024x128 .bf16) (p : Fin 1024) (k : Fin 256) :
    concatenate S1024x256 1 [⟨S1024x128, V⟩, ⟨S1024x128, Mn⟩] Facts₀.concatenates_S1024x128_S1024x128_S1024x256_d1 (ix2 p k)
      = cat (fun k => V (ix2 p k)) (fun k => Mn (ix2 p k)) k := by
  unfold cat
  by_cases h : k.val < 128
  · rw [dif_pos h]
    exact concatenate_pair_apply_left 1 V Mn _ (ix2 p k) rfl (ix2 p ⟨k.val, h⟩)
      (fun b => by match b with | ⟨0, _⟩ => rfl | ⟨1, _⟩ => rfl)
  · rw [dif_neg h]
    exact concatenate_pair_apply_right 1 V Mn _ (ix2 p k) rfl rfl (ix2 p ⟨k.val - 128, by have := k.isLt; omega⟩)
      (fun b hb => by match b, hb with | ⟨0, _⟩, _ => rfl | ⟨1, _⟩, hb => exact absurd rfl hb)
      (by show (k.val - 128) + 128 = k.val; omega)

/-- The product of a joined pair with the weight block, into a zero accumulator, at `(p, d)`: the 256 joined entries of
    row `p` against column `d` of the weights. -/
theorem matmul_joined (V Mn : FVec Ideal S1024x128 .bf16) (Wt : FVec Ideal S256x128 .bf16) (p : Fin 1024) (d : Fin 128) :
    matmul D none (concatenate S1024x256 1 [⟨S1024x128, V⟩, ⟨S1024x128, Mn⟩] Facts₀.concatenates_S1024x128_S1024x128_S1024x256_d1)
        (shapeCast S256x128 Wt Facts₀.shapeCasts_S256x128_S256x128) (constant S1024x128 .f32 0x00000000#32) (ix2 p d)
      = score (fun k => V (ix2 p k)) (fun k => Mn (ix2 p k)) (fun k e => Wt (ix2 k e)) d := by
  rw [shapeCast_self]
  simp only [matmul]
  rw [Ideal.matmul_constant_zero_apply, ← Equiv.sum_comp (contrEquiv1 D 256 rfl rfl).symm]
  unfold score
  refine Finset.sum_congr rfl fun k _ => ?_
  have hk := contrEquiv1_symm_val D 256 rfl rfl k
  have el : D.lhsIdx (ix2 p d) ((contrEquiv1 D 256 rfl rfl).symm k) = ix2 p k := funext fun a => Fin.ext (by
    match a with
    | ⟨0, _⟩ => exact lhs_row _ _
    | ⟨1, _⟩ => exact (lhs_lane _ _).trans hk)
  have er : D.rhsIdx (ix2 p d) ((contrEquiv1 D 256 rfl rfl).symm k) = ix2 k d := funext fun a => Fin.ext (by
    match a with
    | ⟨0, _⟩ => exact (rhs_row _ _).trans hk
    | ⟨1, _⟩ => exact rhs_col _ _)
  rw [el, er, joined_at]

/-! ## The scores, their maximum, the weights and their sum -/

/-- Column `e` of row `k` of the weight block. -/
def wrow (P1 : FVec Ideal S256x128 .bf16) (k : Fin 256) (e : Fin 128) : EReal := P1 (ix2 k e)

/-- The five score vectors of row `p`: each of the row's vectors joined with the mean, against the weights. -/
def scores (P0 : FVec Ideal S1024x640 .f32) (P1 : FVec Ideal S256x128 .bf16) (p : Fin 1024) : Fin 5 → Fin 128 → EReal :=
  fun t => score (xrow P0 p t) (meanK recip (xrow P0 p)) (wrow P1)

/-- A band joined with the mean band, times the weight block, at `(p, d)`: the score of that band's vector. -/
theorem score_at (V : FVec Ideal S1024x128 .f32) (P0 : FVec Ideal S1024x640 .f32) (P1 : FVec Ideal S256x128 .bf16)
    (p : Fin 1024) (d : Fin 128) (t : Fin 5) (hV : ∀ k, V (ix2 p k) = xrow P0 p t k) :
    matmul D none (concatenate S1024x256 1 [⟨S1024x128, truncf .bf16 V Facts₀.bitsLt_bf16_f32⟩, ⟨S1024x128, k0_pay8 (F := Ideal) P0⟩]
        Facts₀.concatenates_S1024x128_S1024x128_S1024x256_d1)
        (shapeCast S256x128 P1 Facts₀.shapeCasts_S256x128_S256x128) (constant S1024x128 .f32 0x00000000#32) (ix2 p d)
      = scores P0 P1 p t d := by
  refine (matmul_joined _ _ P1 p d).trans ?_
  have e1 : (fun k => truncf (F := Ideal) .bf16 V Facts₀.bitsLt_bf16_f32 (ix2 p k)) = xrow P0 p t := funext hV
  have e2 : (fun k => k0_pay8 (F := Ideal) P0 (ix2 p k)) = meanK recip (xrow P0 p) := funext (mean_at P0 p)
  rw [e1, e2]
  rfl

theorem score0_at (P0 : FVec Ideal S1024x640 .f32) (P1 : FVec Ideal S256x128 .bf16) (p : Fin 1024) (d : Fin 128) :
    k0_pay10 (F := Ideal) P0 P1 (ix2 p d) = scores P0 P1 p 0 d := by
  unfold k0_pay10 k0_pay9
  exact score_at _ P0 P1 p d 0 (band0_at P0 p)

theorem score1_at (P0 : FVec Ideal S1024x640 .f32) (P1 : FVec Ideal S256x128 .bf16) (p : Fin 1024) (d : Fin 128) :
    k0_pay11 (F := Ideal) P0 P1 (ix2 p d) = scores P0 P1 p 1 d := by
  unfold k0_pay11 k0_pay9
  exact score_at _ P0 P1 p d 1 (band1_at P0 p)

theorem score2_at (P0 : FVec Ideal S1024x640 .f32) (P1 : FVec Ideal S256x128 .bf16) (p : Fin 1024) (d : Fin 128) :
    k0_pay12 (F := Ideal) P0 P1 (ix2 p d) = scores P0 P1 p 2 d := by
  unfold k0_pay12 k0_pay9
  exact score_at _ P0 P1 p d 2 (band2_at P0 p)

theorem score3_at (P0 : FVec Ideal S1024x640 .f32) (P1 : FVec Ideal S256x128 .bf16) (p : Fin 1024) (d : Fin 128) :
    k0_pay13 (F := Ideal) P0 P1 (ix2 p d) = scores P0 P1 p 3 d := by
  unfold k0_pay13 k0_pay9
  exact score_at _ P0 P1 p d 3 (band3_at P0 p)

theorem score4_at (P0 : FVec Ideal S1024x640 .f32) (P1 : FVec Ideal S256x128 .bf16) (p : Fin 1024) (d : Fin 128) :
    k0_pay14 (F := Ideal) P0 P1 (ix2 p d) = scores P0 P1 p 4 d := by
  unfold k0_pay14 k0_pay9
  exact score_at _ P0 P1 p d 4 (band4_at P0 p)

/-- The running maximum of the five scores at `(p, d)`: the largest score of column `d`. -/
theorem top_at (P0 : FVec Ideal S1024x640 .f32) (P1 : FVec Ideal S256x128 .bf16) (p : Fin 1024) (d : Fin 128) :
    k0_pay15 (F := Ideal) P0 P1 (ix2 p d) = max5 fun s => scores P0 P1 p s d := by
  unfold k0_pay15
  show max (max (max (max (k0_pay10 (F := Ideal) P0 P1 (ix2 p d)) (k0_pay11 (F := Ideal) P0 P1 (ix2 p d)))
      (k0_pay12 (F := Ideal) P0 P1 (ix2 p d))) (k0_pay13 (F := Ideal) P0 P1 (ix2 p d))) (k0_pay14 (F := Ideal) P0 P1 (ix2 p d)) = _
  rw [score0_at, score1_at, score2_at, score3_at, score4_at]
  rfl

theorem weight0_at (P0 : FVec Ideal S1024x640 .f32) (P1 : FVec Ideal S256x128 .bf16) (p : Fin 1024) (d : Fin 128) :
    k0_pay16 (F := Ideal) P0 P1 (ix2 p d) = ew (scores P0 P1 p) 0 d := by
  unfold k0_pay16
  show Ideal.exp (k0_pay10 (F := Ideal) P0 P1 (ix2 p d) - k0_pay15 (F := Ideal) P0 P1 (ix2 p d)) = _
  rw [score0_at, top_at]
  rfl

theorem weight1_at (P0 : FVec Ideal S1024x640 .f32) (P1 : FVec Ideal S256x128 .bf16) (p : Fin 1024) (d : Fin 128) :
    k0_pay17 (F := Ideal) P0 P1 (ix2 p d) = ew (scores P0 P1 p) 1 d := by
  unfold k0_pay17
  show Ideal.exp (k0_pay11 (F := Ideal) P0 P1 (ix2 p d) - k0_pay15 (F := Ideal) P0 P1 (ix2 p d)) = _
  rw [score1_at, top_at]
  rfl

theorem weight2_at (P0 : FVec Ideal S1024x640 .f32) (P1 : FVec Ideal S256x128 .bf16) (p : Fin 1024) (d : Fin 128) :
    k0_pay18 (F := Ideal) P0 P1 (ix2 p d) = ew (scores P0 P1 p) 2 d := by
  unfold k0_pay18
  show Ideal.exp (k0_pay12 (F := Ideal) P0 P1 (ix2 p d) - k0_pay15 (F := Ideal) P0 P1 (ix2 p d)) = _
  rw [score2_at, top_at]
  rfl

theorem weight3_at (P0 : FVec Ideal S1024x640 .f32) (P1 : FVec Ideal S256x128 .bf16) (p : Fin 1024) (d : Fin 128) :
    k0_pay19 (F := Ideal) P0 P1 (ix2 p d) = ew (scores P0 P1 p) 3 d := by
  unfold k0_pay19
  show Ideal.exp (k0_pay13 (F := Ideal) P0 P1 (ix2 p d) - k0_pay15 (F := Ideal) P0 P1 (ix2 p d)) = _
  rw [score3_at, top_at]
  rfl

theorem weight4_at (P0 : FVec Ideal S1024x640 .f32) (P1 : FVec Ideal S256x128 .bf16) (p : Fin 1024) (d : Fin 128) :
    k0_pay20 (F := Ideal) P0 P1 (ix2 p d) = ew (scores P0 P1 p) 4 d := by
  unfold k0_pay20
  show Ideal.exp (k0_pay14 (F := Ideal) P0 P1 (ix2 p d) - k0_pay15 (F := Ideal) P0 P1 (ix2 p d)) = _
  rw [score4_at, top_at]
  rfl

/-- The sum of the five weights at `(p, d)`. -/
theorem weights_sum_at (P0 : FVec Ideal S1024x640 .f32) (P1 : FVec Ideal S256x128 .bf16) (p : Fin 1024) (d : Fin 128) :
    k0_pay21 (F := Ideal) P0 P1 (ix2 p d)
      = ew (scores P0 P1 p) 0 d + ew (scores P0 P1 p) 1 d + ew (scores P0 P1 p) 2 d + ew (scores P0 P1 p) 3 d
        + ew (scores P0 P1 p) 4 d := by
  unfold k0_pay21
  show k0_pay16 (F := Ideal) P0 P1 (ix2 p d) + k0_pay17 (F := Ideal) P0 P1 (ix2 p d) + k0_pay18 (F := Ideal) P0 P1 (ix2 p d)
      + k0_pay19 (F := Ideal) P0 P1 (ix2 p d) + k0_pay20 (F := Ideal) P0 P1 (ix2 p d) = _
  rw [weight0_at, weight1_at, weight2_at, weight3_at, weight4_at]

/-! ## The normalisation: a lane sum kept as a column, and the column spread back over the lanes -/

/-- The index of the block over `(p)` whose lane is `k`. -/
theorem lane_index (p : Fin 1024) (k : Fin (S1024x128.size 1)) :
    (Facts₀.reduces_S1024x128_S1024).lift (ix1 p) k = ix2 p k :=
  funext fun c => Fin.ext (by
    match c with
    | ⟨0, h0⟩ =>
      show (Facts₀.reduces_S1024x128_S1024).liftVal (ix1 p) k.val ⟨0, h0⟩ = p.val
      unfold Shape.Reduces.liftVal
      rw [dif_neg (show ¬ (⟨0, h0⟩ : Fin S1024x128.rank).val = (1 : Fin S1024x128.rank).val from Nat.zero_ne_one),
        dif_pos (show (⟨0, h0⟩ : Fin S1024x128.rank).val < (1 : Fin S1024x128.rank).val from Nat.zero_lt_one)]
    | ⟨1, h1⟩ =>
      show (Facts₀.reduces_S1024x128_S1024).liftVal (ix1 p) k.val ⟨1, h1⟩ = k.val
      unfold Shape.Reduces.liftVal
      rw [dif_pos (show (⟨1, h1⟩ : Fin S1024x128.rank).val = (1 : Fin S1024x128.rank).val from rfl)])

/-- The sum over the lanes of row `p`, from a zero accumulator. -/
theorem lane_sum_at (v : FVec Ideal S1024x128 .f32) (hφ : FKind.Formats .f32)
    (hacc : (0x00000000#32 : BitVec 32) = FKind.add.neutral .f32 hφ) (p : Fin 1024) :
    multiReduction .add [1] S1024 v 0x00000000#32 Facts₀.reduces_S1024x128_S1024 hφ hacc (ix1 p)
      = ∑ e : Fin 128, v (ix2 p e) := by
  refine (Ideal.multiReduction_add_single v 0x00000000#32 Facts₀.reduces_S1024x128_S1024 hφ hacc (ix1 p)).trans ?_
  exact Finset.sum_congr rfl fun k _ => congrArg v (lane_index p k)

/-- A vector of 1024 entries recast as a column of 1024 rows and one lane: entry `(p, 0)` is entry `p`. -/
theorem column_at (v : FVec Ideal S1024 .f32) (p : Fin 1024) :
    shapeCast S1024x1 v Facts₀.shapeCasts_S1024_S1024x1 (ix2 p (0 : Fin 1)) = v (ix1 p) :=
  shapeCast_apply v _ (ix2 p (0 : Fin 1)) (ix1 p) (by
    rw [Shape.rowMajor_val_one, Shape.rowMajor_val_two]
    show p.val = p.val * 1 + 0
    omega)

/-- A column spread over 128 lanes: entry `(p, q)` is the column's entry `(p, 0)`. -/
theorem spread_at (c : FVec Ideal S1024x1 .f32) (p : Fin 1024) (q : Fin 128) :
    broadcastTo S1024x128 c Facts₀.broadcasts_S1024x1_S1024x128 (ix2 p q) = c (ix2 p (0 : Fin 1)) :=
  broadcastTo_apply c _ (ix2 p q) (ix2 p (0 : Fin 1)) (fun a => by
    match a with
    | ⟨0, _⟩ => show p.val = if (1024 : Nat) = 1 then 0 else p.val; rw [if_neg (by decide)]
    | ⟨1, _⟩ => show 0 = if (1 : Nat) = 1 then 0 else q.val; rw [if_pos rfl])

/-- The last steps of the body on a block `y`, at `(p, q)`: row `p` of `y` divided by the larger of its norm and the
    small constant. -/
theorem normalize_at (y : FVec Ideal S1024x128 .f32) (p : Fin 1024) (q : Fin 128) :
    divf y (broadcastTo S1024x128 (maximumf (sqrt (shapeCast S1024x1 (multiReduction .add [1] S1024 (mulf y y) 0x00000000#32
        Facts₀.reduces_S1024x128_S1024 (.inl rfl) rfl) Facts₀.shapeCasts_S1024_S1024x1))
        (broadcast S1024x1 (Scalar.ofBits (F := Ideal) .f32 0x2B8CBCCC#32))) Facts₀.broadcasts_S1024x1_S1024x128) (ix2 p q)
      = normalize (Ideal.ofBits .f32 0x2B8CBCCC#32) (fun e => y (ix2 p e)) q := by
  show Ideal.div (y (ix2 p q)) (broadcastTo S1024x128 _ Facts₀.broadcasts_S1024x1_S1024x128 (ix2 p q)) = _
  rw [spread_at]
  show Ideal.div (y (ix2 p q)) (max (Ideal.sqrt (shapeCast S1024x1 _ Facts₀.shapeCasts_S1024_S1024x1 (ix2 p (0 : Fin 1))))
      (Ideal.ofBits .f32 0x2B8CBCCC#32)) = _
  rw [column_at]
  unfold normalize
  exact congrArg (fun s => Ideal.div (y (ix2 p q)) (max (Ideal.sqrt s) (Ideal.ofBits .f32 0x2B8CBCCC#32)))
    (lane_sum_at (mulf y y) _ _ p)

/-- THE BLOCK AT AN ENTRY: what the body stores at row `p`, column `q` of a block is `Pool.rowK` of the row's five
    vectors and the weight block, with the kernel's reciprocal and the small constant's word. -/
theorem out_at (P0 : FVec Ideal S1024x640 .f32) (P1 : FVec Ideal S256x128 .bf16) (p : Fin 1024) (q : Fin 128) :
    k0_pay1 (F := Ideal) (k0_pay3 P0) (k0_pay4 P0) (k0_pay5 P0) (k0_pay6 P0) (k0_pay7 P0) (k0_pay16 P0 P1) (k0_pay17 P0 P1)
        (k0_pay18 P0 P1) (k0_pay19 P0 P1) (k0_pay20 P0 P1) (k0_pay21 P0 P1) (ix2 p q)
      = rowK recip (Ideal.ofBits .f32 0x2B8CBCCC#32) (xrow P0 p) (wrow P1) q := by
  unfold k0_pay1
  refine (normalize_at _ p q).trans ?_
  unfold rowK
  refine congrArg (fun y => normalize (Ideal.ofBits .f32 0x2B8CBCCC#32) y q) (funext fun e => ?_)
  show Ideal.div (k0_pay3 (F := Ideal) P0 (ix2 p e) * k0_pay16 (F := Ideal) P0 P1 (ix2 p e)
      + k0_pay4 (F := Ideal) P0 (ix2 p e) * k0_pay17 (F := Ideal) P0 P1 (ix2 p e)
      + k0_pay5 (F := Ideal) P0 (ix2 p e) * k0_pay18 (F := Ideal) P0 P1 (ix2 p e)
      + k0_pay6 (F := Ideal) P0 (ix2 p e) * k0_pay19 (F := Ideal) P0 P1 (ix2 p e)
      + k0_pay7 (F := Ideal) P0 (ix2 p e) * k0_pay20 (F := Ideal) P0 P1 (ix2 p e)) (k0_pay21 (F := Ideal) P0 P1 (ix2 p e)) = _
  rw [band0_at, band1_at, band2_at, band3_at, band4_at, weight0_at, weight1_at, weight2_at, weight3_at, weight4_at,
    weights_sum_at]
  rfl

/-- The same at an index given whole: row `j 0`, column `j 1`. -/
theorem out_idx (P0 : FVec Ideal S1024x640 .f32) (P1 : FVec Ideal S256x128 .bf16) (j : S1024x128.Idx) :
    k0_pay1 (F := Ideal) (k0_pay3 P0) (k0_pay4 P0) (k0_pay5 P0) (k0_pay6 P0) (k0_pay7 P0) (k0_pay16 P0 P1) (k0_pay17 P0 P1)
        (k0_pay18 P0 P1) (k0_pay19 P0 P1) (k0_pay20 P0 P1) (k0_pay21 P0 P1) j
      = rowK recip (Ideal.ofBits .f32 0x2B8CBCCC#32) (xrow P0 (j 0)) (wrow P1) (j 1) := by
  obtain ⟨p, q, rfl⟩ : ∃ (p : Fin 1024) (q : Fin 128), j = ix2 p q := ⟨j 0, j 1, eq_ix2 j⟩
  exact out_at P0 P1 p q

end Cert.Pool.Ker

end
-- ==== Proof.KernelArray.lean ====
/-
  From the kernel's blocks to its whole result array.

  The program first recasts the [65536, 5, 128] input as [65536, 640] (row `r`, lane `128 t + k` is entry `(r, t, k)`)
  and adds the scalar bias to the weights. Grid point `t` of 64 then reads rows `1024 t … 1024 t + 1023` of the recast
  input and the whole weight matrix, and writes the same rows of the result. So what point `t` writes back is block `t` of
  ONE function `G` of the three argument arrays — row by row `Pool.rowK` of the row's five vectors and the biased weights
  (`flushed_eq`) —, the 64 blocks cover every row (`cover`), and the result array after the run is `G` (`final`, `run`).
-/
import proofs.«162607_j47261820125624_2_alg».proof.Proof.KernelRow
import proofs.«162607_j47261820125624_2_alg».proof.Proof.Gen.KernelIdeal.Frame
import Idealize.ShloMosaic.Lib.Pipeline.Value
import Idealize.ShloMosaic.Lib.StableHlo.Run
import Idealize.ShloMosaic.Lib.ValueIdx

set_option maxRecDepth 16384

noncomputable section

namespace Cert.Pool.Arr

open Idealize.ShloMosaic Idealize.ShloMosaic.TcCoe Idealize.SL.Sem Idealize.ShloMosaic.ValueIdx
open Cert.KernelIdeal Cert.KernelIdeal.Gen Cert.Pool
open Idealize.ShloMosaic.Pipeline (Dat)
open Idealize.ShloMosaic.StableHlo

variable (m : (ℓ : Loc nD τ sig) → Buf (Elt Ideal) ℓ) (ρ : Dev nD → PrngReg)

/-- The weights with the scalar added to every entry. -/
def biased (W : S256x128.Idx → EReal) (B : S_.Idx → EReal) : Fin 256 → Fin 128 → EReal := fun k e => W (ix2 k e) + B ix0

/-- The result array as one function of the three argument arrays: entry `(r, d)` is column `d` of `Pool.rowK` of row
    `r`'s five vectors against the weights with the scalar added. -/
def G (X : S65536x5x128.Idx → EReal) (W : S256x128.Idx → EReal) (B : S_.Idx → EReal) : S65536x128.Idx → EReal :=
  fun i => rowK Ker.recip (Ideal.ofBits .f32 0x2B8CBCCC#32) (fun t k => X (ix3 (i 0) t k)) (biased W B) (i 1)

theorem hz : (![0, 0] : Fin 2 → Nat) = fun _ => 0 := funext fun a => by fin_cases a <;> rfl

/-- The block index maps over the 64 grid points: the input and the result move one block of rows per point, the
    weights stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-! ## The two arrays the host prepares -/

/-- The first operand's array is the input recast to 640 lanes. -/
theorem V_x2 (c : Dev nD) : (V m c main_v0 : S65536x640.Idx → EReal)
    = shapeCast S65536x640 (m ((c : Thread nD τ).loc main_arg0)) Facts₀.shapeCasts_S65536x5x128_S65536x640 := by
  dsimp only [Gen.V, Gen.hostOps0]; after_results; rfl

/-- The second operand's array is the weights plus the scalar spread over them. -/
theorem V_wb (c : Dev nD) (W : FVec Ideal S256x128 .f32) (B : FVec Ideal S_ .f32)
    (hW : m ((c : Thread nD τ).loc main_arg1) = W) (hB : m ((c : Thread nD τ).loc main_arg2) = B) :
    (V m c main_v3 : S256x128.Idx → EReal)
      = truncf (F := Ideal) .bf16 (addf W (broadcastInDim S256x128 ![] Facts₀.bcast_S_S256x128 B)) Facts₀.bitsLt_bf16_f32 := by
  subst hW hB
  dsimp only [Gen.V, Gen.hostOps0]; after_results

/-! ## A block's entries, read back to the argument arrays -/

/-- Entry `k` of vector `t'` of row `p` of point `t`'s input block is entry `(r, t', k)` of the input, `r` the row of the
    array under row `p` of the block. -/
theorem block_x (c : Dev nD) (t : Fin cfg0.N) (p : Fin 1024) (t' : Fin 5) (k : Fin 128) (r : Fin 65536)
    (hr : r.val = win0_2.index t (0 : Fin 2) * 1024 + 1 * p.val) :
    Ker.xrow (iblk m c 0 t) p t' k = m ((c : Thread nD τ).loc main_arg0) (ix3 r t' k) := by
  obtain ⟨e00, e01, e10, e11, e20, e21⟩ := idx_facts t
  unfold Ker.xrow iblk
  show V m c main_v0 (((cfg0.win 0).blk t).view.emb (ix2 p ⟨128 * t'.val + k.val, by have := t'.isLt; have := k.isLt; omega⟩)) = _
  rw [V_x2]
  refine shapeCast_apply _ _ _ (ix3 r t' k) ?_
  rw [Shape.rowMajor_val_three, Shape.rowMajor_val_two]
  show (r.val * 5 + t'.val) * 128 + k.val
    = (win0_0.index t (0 : Fin 2) * 1024 + 1 * p.val) * 640 + (win0_0.index t (1 : Fin 2) * 640 + 1 * (128 * t'.val + k.val))
  have := t'.isLt
  omega

/-- Entry `(k, e)` of the weight block is the weight plus the scalar. -/
theorem block_w (c : Dev nD) (t : Fin cfg0.N) (W : FVec Ideal S256x128 .f32) (B : FVec Ideal S_ .f32)
    (hW : m ((c : Thread nD τ).loc main_arg1) = W) (hB : m ((c : Thread nD τ).loc main_arg2) = B) (k : Fin 256) (e : Fin 128) :
    Ker.wrow (iblk m c 1 t) k e = W (ix2 k e) + B ix0 := by
  obtain ⟨e00, e01, e10, e11, e20, e21⟩ := idx_facts t
  unfold Ker.wrow iblk
  show V m c main_v3 (((cfg0.win 1).blk t).view.emb (ix2 k e)) = _
  have hemb : ((cfg0.win 1).blk t).view.emb (ix2 k e) = ix2 k e := by
    funext a; apply Fin.ext
    match a with
    | ⟨0, _⟩ => show win0_1.index t (0 : Fin 2) * 256 + 1 * k.val = k.val; omega
    | ⟨1, _⟩ => show win0_1.index t (1 : Fin 2) * 128 + 1 * e.val = e.val; omega
  refine (congrArg (V m c main_v3) hemb).trans ?_
  rw [V_wb m c W B hW hB]
  show W (ix2 k e) + broadcastInDim S256x128 ![] Facts₀.bcast_S_S256x128 B (ix2 k e) = _
  rw [broadcastInDim_apply ![] Facts₀.bcast_S_S256x128 B (ix2 k e) ix0 (fun a => a.elim0)]

/-! ## What a point writes back, the cover, the array -/

/-- WHAT POINT `t` WRITES BACK is block `t` of `G` of the argument arrays. -/
theorem flushed_eq (c : Dev nD) (t : Fin cfg0.N) :
    (dats m 0 c).flushed 2 t = ((cfg0.win 2).blk t).view.read (Elt Ideal)
      (G (m ((c : Thread nD τ).loc main_arg0)) (m ((c : Thread nD τ).loc main_arg1)) (m ((c : Thread nD τ).loc main_arg2))) := by
  show (cfg0.win 2).cut (grid0.coords t) ((dats m 0 c).after 2 t) = _
  rw [after0_2]
  unfold out0_2
  rw [View.canon_unit_zero hz]
  simp only [View.ld_unit_zero (S := S1024x640) hz, View.ld_unit_zero (S := S256x128) hz]
  obtain ⟨e00, e01, e10, e11, e20, e21⟩ := idx_facts t
  funext j
  refine (Ker.out_idx (iblk m c 0 t) (iblk m c 1 t) j).trans ?_
  show _ = G _ _ _ (((cfg0.win 2).blk t).view.emb j)
  unfold G
  have hrow : ((((cfg0.win 2).blk t).view.emb j) 0).val = win0_2.index t (0 : Fin 2) * 1024 + 1 * (j 0).val := rfl
  have hcol : (((cfg0.win 2).blk t).view.emb j) 1 = j 1 :=
    Fin.ext (by show win0_2.index t (1 : Fin 2) * 128 + 1 * (j 1).val = (j 1).val; omega)
  have h1 : Ker.xrow (iblk m c 0 t) (j 0)
      = fun t' k => m ((c : Thread nD τ).loc main_arg0) (ix3 ((((cfg0.win 2).blk t).view.emb j) 0) t' k) :=
    funext fun t' => funext fun k => block_x m c t (j 0) t' k _ hrow
  have h2 : Ker.wrow (iblk m c 1 t)
      = biased (m ((c : Thread nD τ).loc main_arg1)) (m ((c : Thread nD τ).loc main_arg2)) :=
    funext fun k => funext fun e => block_w m c t _ _ rfl rfl k e
  exact congr (congr (congrArg (rowK Ker.recip (Ideal.ofBits .f32 0x2B8CBCCC#32)) h1) h2) hcol.symm

/-- An index of the result array is in point `t`'s block iff each coordinate is in the block's range on its axis. -/
theorem mem_blk (t : Fin cfg0.N) (i : S65536x128.Idx) :
    i ∈ ((cfg0.win 2).blk t).view.set ↔ ∀ a : Fin 2, win0_2.index t a * S1024x128.size a ≤ (i a).val
      ∧ (i a).val < win0_2.index t a * S1024x128.size a + S1024x128.size a := by
  show i ∈ ((View.whole main_v4).slice (win0_2.rect t)).set ↔ _
  rw [View.set_slice_whole, Rect.mem_set_unit]
  exact Iff.rfl

/-- Every row of the result lies in the block of the point that is its row number divided by 1024. -/
theorem cover (i : S65536x128.Idx) :
    ∃ t : Fin cfg0.N, (cfg0.win 2).flush t = true ∧ i ∈ ((cfg0.win 2).blk t).view.set := by
  have hi0 : (i 0).val < 65536 := (i 0).isLt
  have hi1 : (i 1).val < 128 := (i 1).isLt
  have ht : (i 0).val / 1024 < 64 := by omega
  obtain ⟨e00, e01, e10, e11, e20, e21⟩ := idx_facts ⟨(i 0).val / 1024, ht⟩
  refine ⟨⟨(i 0).val / 1024, ht⟩, flush0_2 _, ?_⟩
  rw [mem_blk]
  intro a
  match a with
  | ⟨0, _⟩ =>
    show win0_2.index ⟨(i 0).val / 1024, ht⟩ (0 : Fin 2) * 1024 ≤ (i 0).val
      ∧ (i 0).val < win0_2.index ⟨(i 0).val / 1024, ht⟩ (0 : Fin 2) * 1024 + 1024
    have e : win0_2.index ⟨(i 0).val / 1024, ht⟩ (0 : Fin 2) = (i 0).val / 1024 := e20
    omega
  | ⟨1, _⟩ =>
    show win0_2.index ⟨(i 0).val / 1024, ht⟩ (1 : Fin 2) * 128 ≤ (i 1).val
      ∧ (i 1).val < win0_2.index ⟨(i 0).val / 1024, ht⟩ (1 : Fin 2) * 128 + 128
    omega

/-- THE ARRAY after the run is `G` of the argument arrays. -/
theorem final (c : Dev nD) : (dats m 0 c).arrAt 2 cfg0.N
    = G (m ((c : Thread nD τ).loc main_arg0)) (m ((c : Thread nD τ).loc main_arg1)) (m ((c : Thread nD τ).loc main_arg2)) :=
  (dats m 0 c).arrAt_eq_of_cover 2 _ (fun t _ => flushed_eq m c t) cover

/-- The kernel's run restated: the result array is `G` of the arguments, and the arguments end as they were. -/
theorem run : θ_run defs (onTc (τ := τ) (main (F := Ideal))) ⟨m, fun _ => 0, ρ⟩ fun r => ∀ c : Dev nD,
      r.2.mem ((c : Thread nD τ).loc main_v4)
        = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 2).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.Pool.Arr

end
-- ==== Proof.RefRow.lean ====
/-
  The reference program read at one batch row.

  The reference computes, at batch row `b` and column `d`, the row function `rowR` of the specification: the mean
  vector of the row's five vectors by a division, the 256 joined entries against the biased weights, a softmax over
  the five scores of each column with every weight divided by the sum first, the weighted sum of the five vectors,
  and that pooled vector over the larger of its Euclidean norm and a small constant. The stages are read one at a
  time at an index, innermost first, each as the specification's function of the row.
-/
import proofs.«162607_j47261820125624_2_alg».proof.Proof.Spec
import proofs.«162607_j47261820125624_2_alg».proof.Proof.Gen.ReferenceIdeal.Read
import Idealize.ShloMosaic.Lib.ValueIdx
import Idealize.ShloMosaic.Lib.Pipeline.Value
import Idealize.ShloMosaic.PureOps.Ideal.Laws

noncomputable section

namespace Cert.Pool.Ref

open Idealize.ShloMosaic Idealize.ShloMosaic.ValueIdx Cert.ReferenceIdeal Cert.ReferenceIdeal.Read

/-! ## The constant words -/

/-- The word of `+0.0` is the extended real `0`. -/
theorem zero_word : FloatOps.ofBits (F := Ideal) .f32 0x00000000#32 = (0 : EReal) := Ideal.ofBits_zero_f32

/-- The word of `-∞` is the least extended real. -/
theorem ninf_word : FloatOps.ofBits (F := Ideal) .f32 0xFF800000#32 = (⊥ : EReal) := by
  simp [Ideal.ofBits, Ideal.ieee]

/-! ## A concatenation and a maximum-reduction at an index -/

/-- A concatenation of two `[65536, 5, 128]` arrays along the last axis, read at `(b, t, k)`: entry `k` of the
    row `(b, t)` of the first followed by the row `(b, t)` of the second. -/
theorem cat_apply (x y : (⟨S65536x5x128, .f32⟩ : BufTy).Contents (Elt Ideal))
    (h : Shape.Concatenates [S65536x5x128, S65536x5x128] S65536x5x256 2) (b : Fin 65536) (t : Fin 5) (k : Fin 256) :
    concatenate S65536x5x256 2 [⟨S65536x5x128, x⟩, ⟨S65536x5x128, y⟩] h (ix3 b t k)
      = Cert.Pool.cat (fun k' => x (ix3 b t k')) (fun k' => y (ix3 b t k')) k := by
  unfold Cert.Pool.cat
  split
  · next hk =>
    exact concatenate_pair_apply_left 2 x y h (ix3 b t k) rfl (ix3 b t ⟨k.val, hk⟩)
      (fun a => by match a with | ⟨0, _⟩ => rfl | ⟨1, _⟩ => rfl | ⟨2, _⟩ => rfl)
  · next hk =>
    have hk' : k.val - 128 < 128 := by have := k.isLt; omega
    exact concatenate_pair_apply_right 2 x y h (ix3 b t k) rfl rfl (ix3 b t ⟨k.val - 128, hk'⟩)
      (fun a ha => by
        match a, ha with
        | ⟨0, _⟩, _ => rfl
        | ⟨1, _⟩, _ => rfl
        | ⟨2, _⟩, ha => exact absurd rfl ha)
      (by show k.val - 128 + 128 = k.val; omega)

/-- The largest of five numbers as the fold of the binary maximum from the least element. -/
theorem fold_max5 (f : Fin 5 → EReal) : (Finset.univ : Finset (Fin 5)).fold max ⊥ f = Cert.Pool.max5 f := by
  have hu : (Finset.univ : Finset (Fin 5)) = {0, 1, 2, 3, 4} := by decide
  rw [hu, Finset.fold_insert (by decide), Finset.fold_insert (by decide), Finset.fold_insert (by decide),
    Finset.fold_insert (by decide), Finset.fold_singleton]
  unfold Cert.Pool.max5
  simp only [max_assoc, max_bot_right]

/-- A maximum-reduction of a `[65536, 5, 128]` array over its middle axis, read at `(b, d)`: the fold of the binary
    maximum from the initial value over the five entries `(b, t, d)`. -/
theorem reduce_max_apply (x : (⟨S65536x5x128, .f32⟩ : BufTy).Contents (Elt Ideal))
    (init : (⟨S_, .f32⟩ : BufTy).Contents (Elt Ideal)) (h' : S65536x5x128.ReducesTo [1] S65536x128)
    (hu : 0 < S_.numel) (b : Fin 65536) (d : Fin 128) :
    Host.reduce (FloatOps.maximumf (F := Ideal) (φ := .f32)) x init h' hu (ix2 b d)
      = (Finset.univ : Finset (Fin 5)).fold max (init (Shape.Idx.first hu)) (fun t => x (ix3 b t d)) := by
  have h : S65536x5x128.Reduces [1] S65536x128 := by decide
  rw [Host.reduce_eq_fold_single _ x init h' h hu]
  show (Finset.univ : Finset (Fin 5)).fold max (init (Shape.Idx.first hu)) (fun t => x (h.lift (ix2 b d) t)) = _
  congr 1
  funext t
  exact congrArg x (funext fun a => Fin.ext (by match a with | ⟨0, _⟩ => rfl | ⟨1, _⟩ => rfl | ⟨2, _⟩ => rfl))

/-! ## The stages at an index, innermost first -/

section Row

variable (X : (⟨S65536x5x128, .f32⟩ : BufTy).Contents (Elt Ideal)) (W : (⟨S256x128, .f32⟩ : BufTy).Contents (Elt Ideal))
  (B : (⟨S_, .f32⟩ : BufTy).Contents (Elt Ideal))

/-- The five vectors of batch row `b`. -/
abbrev xr (b : Fin 65536) : Fin 5 → Fin 128 → EReal := fun t k => X (ix3 b t k)

/-- The weights with the scalar bias added. -/
abbrev wb : Fin 256 → Fin 128 → EReal := fun k e => W (ix2 k e) + B ix0

/-- The count word `5.0`, left unevaluated. -/
abbrev n5 : EReal := Ideal.ofBits .f32 0x40A00000#32

/-- The five score vectors of batch row `b`. -/
abbrev sc (b : Fin 65536) : Fin 5 → Fin 128 → EReal :=
  fun t => Cert.Pool.score (xr X b t) (Cert.Pool.meanR n5 (xr X b)) (wb W B)

/-- The broadcast mean at `(b, t, k)`: the sum of the row's five vectors at `k` divided by the count. -/
theorem v4_row (b : Fin 65536) (t : Fin 5) (k : Fin 128) :
    val_main_v4 (F := Ideal) X (ix3 b t k) = Cert.Pool.meanR n5 (xr X b) k := by
  have e : ∀ s : Fin 5, idx_main_v0 (idx_main_v1 (idx_main_v4 (ix3 b t k))) s = ix3 b s k := fun s =>
    funext fun a => Fin.ext (by match a with | ⟨0, _⟩ => rfl | ⟨1, _⟩ => rfl | ⟨2, _⟩ => rfl)
  rw [val_main_v4_apply, val_main_v3_apply, val_main_v1_apply, val_main_v0_apply, val_main_v2_apply,
    val_main_cst_0_apply, val_main_cst_apply, zero_word, zero_add]
  simp only [e]
  rfl

/-- The joined array at `(b, t, k)`: the vector `(b, t)` followed by the row's mean vector. -/
theorem v5_row (b : Fin 65536) (t : Fin 5) (k : Fin 256) :
    val_main_v5 (F := Ideal) X (ix3 b t k) = Cert.Pool.cat (xr X b t) (Cert.Pool.meanR n5 (xr X b)) k := by
  unfold val_main_v5
  rw [cat_apply]
  exact congrArg (fun m => Cert.Pool.cat (xr X b t) m k) (funext fun k' => v4_row X b t k')

/-- The biased weights at `(k, e)`. -/
theorem v7_row (k : Fin 256) (e : Fin 128) : val_main_v7 (F := Ideal) W B (ix2 k e) = wb W B k e := by
  rw [val_main_v7_apply, val_main_v6_apply]
  rfl

/-- The contraction at `(b, t, d)`: the score of vector `t` of the row at column `d`. -/
theorem v8_row (b : Fin 65536) (t : Fin 5) (d : Fin 128) :
    val_main_v8 (F := Ideal) X W B (ix3 b t d) = sc X W B b t d := by
  have el : ∀ k : Fin 256, lidx_main_v8 (ix3 b t d) k = ix3 b t k := fun k =>
    funext fun a => Fin.ext (by match a with | ⟨0, _⟩ => rfl | ⟨1, _⟩ => rfl | ⟨2, _⟩ => rfl)
  have er : ∀ k : Fin 256, ridx_main_v8 (ix3 b t d) k = ix2 k d := fun k =>
    funext fun a => Fin.ext (by match a with | ⟨0, _⟩ => rfl | ⟨1, _⟩ => rfl)
  rw [val_main_v8_apply]
  simp only [el, er, v5_row, v7_row]
  rfl

/-- The column maximum at `(b, d)`: the largest of the five scores of column `d`. -/
theorem v11_row (b : Fin 65536) (d : Fin 128) :
    val_main_v11 (F := Ideal) X W B (ix2 b d) = Cert.Pool.max5 fun s => sc X W B b s d := by
  rw [val_main_v11_apply, val_main_v10_apply, val_main_cst_2_apply, ninf_word]
  unfold val_main_v9
  rw [reduce_max_apply, val_main_cst_1_apply, ninf_word]
  simp only [v8_row]
  rw [fold_max5]
  exact max_bot_left _

/-- The exponentials at `(b, t, d)`. -/
theorem v15_row (b : Fin 65536) (t : Fin 5) (d : Fin 128) :
    val_main_v15 (F := Ideal) X W B (ix3 b t d) = Cert.Pool.ew (sc X W B b) t d := by
  have e : idx_main_v12 (idx_main_v13 (ix3 b t d)) = ix2 b d :=
    funext fun a => Fin.ext (by match a with | ⟨0, _⟩ => rfl | ⟨1, _⟩ => rfl)
  rw [val_main_v15_apply, val_main_v14_apply, val_main_v13_apply, val_main_v12_apply, e, v11_row, v8_row]
  rfl

/-- The sum of the exponentials at `(b, d)`. -/
theorem v16_row (b : Fin 65536) (d : Fin 128) :
    val_main_v16 (F := Ideal) X W B (ix2 b d) = ∑ s : Fin 5, Cert.Pool.ew (sc X W B b) s d := by
  have e : ∀ s : Fin 5, idx_main_v16 (ix2 b d) s = ix3 b s d := fun s =>
    funext fun a => Fin.ext (by match a with | ⟨0, _⟩ => rfl | ⟨1, _⟩ => rfl | ⟨2, _⟩ => rfl)
  rw [val_main_v16_apply, val_main_cst_3_apply, zero_word, zero_add]
  simp only [e, v15_row]

/-- The pooled vector at `(b, d)`. -/
theorem v21_row (b : Fin 65536) (d : Fin 128) :
    val_main_v21 (F := Ideal) X W B (ix2 b d) = Cert.Pool.pooledR (xr X b) (sc X W B b) d := by
  have e : ∀ s : Fin 5, idx_main_v21 (ix2 b d) s = ix3 b s d := fun s =>
    funext fun a => Fin.ext (by match a with | ⟨0, _⟩ => rfl | ⟨1, _⟩ => rfl | ⟨2, _⟩ => rfl)
  have e' : ∀ s : Fin 5, idx_main_v17 (idx_main_v18 (ix3 b s d)) = ix2 b d := fun s =>
    funext fun a => Fin.ext (by match a with | ⟨0, _⟩ => rfl | ⟨1, _⟩ => rfl)
  rw [val_main_v21_apply, val_main_cst_4_apply, zero_word, zero_add]
  simp only [e, val_main_v20_apply, val_main_v19_apply, val_main_v18_apply, val_main_v17_apply, e', v15_row, v16_row]
  rfl

end Row

/-- THE REFERENCE AT A ROW: its result at batch row `b` and column `d` is `rowR` of the row's five vectors and the
    biased weights, with the count and the small constant as the program's words. -/
theorem ref_row (X : (⟨S65536x5x128, .f32⟩ : BufTy).Contents (Elt Ideal)) (W : (⟨S256x128, .f32⟩ : BufTy).Contents (Elt Ideal)) (B : (⟨S_, .f32⟩ : BufTy).Contents (Elt Ideal)) (b : Fin 65536) (d : Fin 128) :
    val_main_v26 (F := Ideal) X W B (ix2 b d)
      = Cert.Pool.rowR (Ideal.ofBits .f32 0x40A00000#32) (Ideal.ofBits .f32 0x2B8CBCCC#32) (fun t k => X (ix3 b t k)) (fun k e => W (ix2 k e) + B ix0) d := by
  have e : ∀ k : Fin 128, idx_main_call0_v1 (idx_main_call0_v2 (idx_main_v25 (ix2 b d))) k = ix2 b k := fun k =>
    funext fun a => Fin.ext (by match a with | ⟨0, _⟩ => rfl | ⟨1, _⟩ => rfl)
  rw [val_main_v26_apply, val_main_v25_apply, val_main_v24_apply, val_main_v22_apply, val_main_call0_v2_apply,
    val_main_call0_v1_apply, val_main_call0_cst_apply, zero_word, zero_add, val_main_v23_apply, val_main_cst_5_apply]
  simp only [e, val_main_call0_v0_apply, v21_row]
  rfl

end Cert.Pool.Ref

end
-- ==== Proof.RowLaw.lean ====
/-
  The two arrangements of one batch row of the attention pooling are the same function over finite entries.

  "x is a real" is written  ∃ r : ℝ, x = (r : EReal).  The reals are closed under the sums, products, maxima and
  differences the row is made of, the exponential of a real is a positive real, and the sum of five positive reals
  is a positive real; so the division by the sum of the weights is a multiplication by a real reciprocal, and
  "weight each vector by eₜ / s" and "divide the weighted sum by s" are one identity of the field ℝ. At an infinite
  entry the identity can fail (∞ · 0 against a quotient of infinities), which is why the hypotheses are there.
-/
import proofs.«162607_j47261820125624_2_alg».proof.Proof.Spec
import Idealize.ShloMosaic.PureOps.Ideal.Laws

noncomputable section

namespace Cert.Pool

open Idealize.ShloMosaic

/-- The word `0x40A00000` is the float `5.0`: sign 0, exponent 129, fraction 1/4, so (1 + 1/4) · 2² = 5. -/
theorem ofBits_five : Ideal.ofBits .f32 0x40A00000#32 = ((5 : ℝ) : EReal) := by
  simp [Ideal.ofBits, Ideal.ieee, -EReal.coe_mul]; norm_num

/-- Dividing the sum of the five vectors by 5 is multiplying it by 1/5, at the infinities too: 5 is a nonzero
    real, so the division is the product with its reciprocal. -/
theorem meanR_eq_meanK (x : Fin 5 → Fin 128 → EReal) :
    meanR ((5 : ℝ) : EReal) x = meanK ((1 / 5 : ℝ) : EReal) x := by
  funext k
  unfold meanR meanK
  rw [Ideal.div_coe (by norm_num : (5 : ℝ) ≠ 0), Fin.sum_univ_five]

/-! ### The reals are closed under the row's operations -/

/-- The sum of two reals is a real. -/
theorem real_add {a b : EReal} (ha : ∃ r : ℝ, a = r) (hb : ∃ r : ℝ, b = r) : ∃ r : ℝ, a + b = r := by
  obtain ⟨r, rfl⟩ := ha
  obtain ⟨s, rfl⟩ := hb
  exact ⟨r + s, (EReal.coe_add r s).symm⟩

/-- The product of two reals is a real. -/
theorem real_mul {a b : EReal} (ha : ∃ r : ℝ, a = r) (hb : ∃ r : ℝ, b = r) : ∃ r : ℝ, a * b = r := by
  obtain ⟨r, rfl⟩ := ha
  obtain ⟨s, rfl⟩ := hb
  exact ⟨r * s, (EReal.coe_mul r s).symm⟩

/-- The larger of two reals is one of the two, hence a real. -/
theorem real_max {a b : EReal} (ha : ∃ r : ℝ, a = r) (hb : ∃ r : ℝ, b = r) : ∃ r : ℝ, max a b = r := by
  rcases max_choice a b with h | h <;> rw [h] <;> assumption

/-- A finite sum of reals is a real. -/
theorem real_sum {ι : Type} (s : Finset ι) (f : ι → EReal) (h : ∀ i ∈ s, ∃ r : ℝ, f i = r) :
    ∃ r : ℝ, ∑ i ∈ s, f i = r :=
  Finset.sum_induction f (fun v => ∃ r : ℝ, v = r) (fun _ _ => real_add) ⟨0, EReal.coe_zero.symm⟩ h

/-- An entry of the joined vector is an entry of one of its two halves, hence a real. -/
theorem cat_real (xt mean : Fin 128 → EReal) (hx : ∀ k, ∃ r : ℝ, xt k = r) (hm : ∀ k, ∃ r : ℝ, mean k = r)
    (k : Fin 256) : ∃ r : ℝ, cat xt mean k = r := by
  unfold cat
  split
  · exact hx _
  · exact hm _

/-- The mean by a real reciprocal of five real vectors is a real vector. -/
theorem meanK_real (c : EReal) (x : Fin 5 → Fin 128 → EReal) (hc : ∃ r : ℝ, c = r)
    (hx : ∀ t k, ∃ r : ℝ, x t k = r) (k : Fin 128) : ∃ r : ℝ, meanK c x k = r := by
  unfold meanK
  exact real_mul (real_add (real_add (real_add (real_add (hx 0 k) (hx 1 k)) (hx 2 k)) (hx 3 k)) (hx 4 k)) hc

/-- The mean by division by 5 of five real vectors is a real vector (it is the mean by the reciprocal 1/5). -/
theorem meanR_real (x : Fin 5 → Fin 128 → EReal) (hx : ∀ t k, ∃ r : ℝ, x t k = r) (k : Fin 128) :
    ∃ r : ℝ, meanR ((5 : ℝ) : EReal) x k = r := by
  rw [meanR_eq_meanK]
  exact meanK_real _ x ⟨1 / 5, rfl⟩ hx k

/-- A score is a finite sum of products of reals, hence a real. -/
theorem score_real (xt mean : Fin 128 → EReal) (wb : Fin 256 → Fin 128 → EReal)
    (hx : ∀ k, ∃ r : ℝ, xt k = r) (hm : ∀ k, ∃ r : ℝ, mean k = r) (hw : ∀ k d, ∃ r : ℝ, wb k d = r)
    (d : Fin 128) : ∃ r : ℝ, score xt mean wb d = r := by
  unfold score
  exact real_sum _ _ fun k _ => real_mul (cat_real xt mean hx hm k) (hw k d)

/-- The largest of five reals is a real. -/
theorem max5_real (a : Fin 5 → EReal) (ha : ∀ t, ∃ r : ℝ, a t = r) : ∃ r : ℝ, max5 a = r := by
  unfold max5
  exact real_max (real_max (real_max (real_max (ha 0) (ha 1)) (ha 2)) (ha 3)) (ha 4)

/-- Over real scores every weight is the exponential of a real, a positive real. -/
theorem ew_pos_real (A : Fin 5 → Fin 128 → EReal) (hA : ∀ t d, ∃ r : ℝ, A t d = r) (t : Fin 5) (d : Fin 128) :
    ∃ e : ℝ, 0 < e ∧ ew A t d = e := by
  obtain ⟨m, hm⟩ := max5_real (fun s => A s d) fun s => hA s d
  obtain ⟨a, ha⟩ := hA t d
  refine ⟨Real.exp (a - m), Real.exp_pos _, ?_⟩
  unfold ew
  rw [hm, ha, ← EReal.coe_sub, Ideal.exp_coe]

/-- THE law: Σₜ xₜ · (eₜ / s) = (Σₜ xₜ · eₜ) / s with s = Σₜ eₜ. The eₜ are positive reals, so s is a positive
    real and both divisions are products with the real 1/s; what is left is distributivity in ℝ. -/
theorem pooledR_eq_pooledK (x A : Fin 5 → Fin 128 → EReal) (hx : ∀ t d, ∃ r : ℝ, x t d = r)
    (hA : ∀ t d, ∃ r : ℝ, A t d = r) : pooledR x A = pooledK x A := by
  funext d
  obtain ⟨e0, p0, h0⟩ := ew_pos_real A hA 0 d
  obtain ⟨e1, p1, h1⟩ := ew_pos_real A hA 1 d
  obtain ⟨e2, p2, h2⟩ := ew_pos_real A hA 2 d
  obtain ⟨e3, p3, h3⟩ := ew_pos_real A hA 3 d
  obtain ⟨e4, p4, h4⟩ := ew_pos_real A hA 4 d
  obtain ⟨x0, hx0⟩ := hx 0 d
  obtain ⟨x1, hx1⟩ := hx 1 d
  obtain ⟨x2, hx2⟩ := hx 2 d
  obtain ⟨x3, hx3⟩ := hx 3 d
  obtain ⟨x4, hx4⟩ := hx 4 d
  have hs : (e0 : EReal) + e1 + e2 + e3 + e4 = ((e0 + e1 + e2 + e3 + e4 : ℝ) : EReal) := by
    simp only [EReal.coe_add]
  have hpos : (e0 + e1 + e2 + e3 + e4 : ℝ) ≠ 0 := by positivity
  unfold pooledR pooledK
  simp only [Fin.sum_univ_five]
  rw [h0, h1, h2, h3, h4, hx0, hx1, hx2, hx3, hx4, hs]
  simp only [Ideal.div_coe hpos, ← EReal.coe_mul, ← EReal.coe_add]
  congr 1
  ring

/-- The two arrangements of a row agree over finite entries: the means agree always, the scores built on them
    are then reals, and the pooled vectors agree by the law above; the normalisation is the same function of the
    pooled vector on both sides. -/
theorem rowR_eq_rowK (eps : EReal) (x : Fin 5 → Fin 128 → EReal) (wb : Fin 256 → Fin 128 → EReal)
    (hx : ∀ t k, ∃ r : ℝ, x t k = r) (hw : ∀ k d, ∃ r : ℝ, wb k d = r) :
    rowR ((5 : ℝ) : EReal) eps x wb = rowK ((1 / 5 : ℝ) : EReal) eps x wb := by
  unfold rowR rowK
  rw [meanR_eq_meanK]
  rw [pooledR_eq_pooledK x _ hx fun t d =>
    score_real (x t) _ wb (hx t) (meanK_real _ x ⟨1 / 5, rfl⟩ hx) hw d]

end Cert.Pool

end
-- ==== Proof.Finite.lean ====
/-
  The precondition's finiteness test, read back at the extended reals. The test computes, for each of the three input
  arrays, the bit |x| < +∞ at every entry, takes the conjunction of the bits over the whole array, and conjoins the three
  results. At the extended reals |x| is max x (-x), and max x (-x) < ⊤ holds exactly when x is neither ⊤ nor ⊥: x is a
  real number. So a test that came out 1 says every entry of every array is a real number.
-/
import proofs.«162607_j47261820125624_2_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Pool.Fin

open Idealize.ShloMosaic

/-- The f32 pattern 0x7F800000 (sign 0, exponent all ones, fraction 0) denotes +∞. -/
theorem inf_word : Ideal.ofBits .f32 0x7F800000#32 = (⊤ : EReal) := by
  simp [Ideal.ofBits, Ideal.ieee]

/-- An extended real whose absolute value max x (-x) is below ⊤ is a real: ⊥ fails since -⊥ = ⊤, ⊤ fails since
    max ⊤ _ = ⊤. -/
theorem real_of_abs_lt_top (x : EReal) (h : max x (-x) < ⊤) : ∃ r : ℝ, x = (r : EReal) := by
  induction x using EReal.rec with
  | bot => simp at h
  | coe r => exact ⟨r, rfl⟩
  | top => simp at h

/-- A one-bit word made from a Boolean is 1 exactly when the Boolean is true. -/
theorem ofBool_eq_one (b : Bool) : BitVec.ofBool b = 1#1 ↔ b = true := by cases b <;> decide

/-- The element fact: the comparison bit |x| < w, with w = +∞, is 1 only at a real x. -/
theorem real_of_bit (x w : Ideal .f32) (hw : w = (⊤ : EReal))
    (h : FloatOps.cmpf (F := Ideal) .olt (FloatOps.hostAbsf x) w = 1#1) : ∃ r : ℝ, x = (r : EReal) := by
  rw [Ideal.hostAbsf_def, Ideal.absf_def, Ideal.cmpf_def, hw] at h
  unfold Ideal.cmp at h
  rw [ofBool_eq_one] at h
  exact real_of_abs_lt_top x (of_decide_eq_true h)

/-- The scalar shape has one index. -/
instance : Subsingleton Cert.Pre_finite_inputs.S_.Idx := ⟨fun a b => funext fun d => d.elim0⟩

/-- An array all of whose bits |x| < +∞ conjoin to 1 holds reals only; the same statement serves the rank-3 array, the
    rank-2 array and the scalar (whose conjunction is over no axes). -/
theorem all_real {s : Shape} {axes : List (Fin s.rank)} (a w : FVec Ideal s .f32) (hw : ∀ i, w i = (⊤ : EReal))
    (init : IVec Cert.Pre_finite_inputs.S_ 1) (h : s.ReducesTo axes Cert.Pre_finite_inputs.S_)
    (hu : 0 < Cert.Pre_finite_inputs.S_.numel) (j : Cert.Pre_finite_inputs.S_.Idx)
    (e : Host.reduce IntOp.andi (cmpf .olt (Host.absf a) w) init h hu j = 1#1) (i : s.Idx) :
    ∃ r : ℝ, a i = (r : EReal) :=
  real_of_bit (a i) (w i) (hw i) (Host.reduce_andi_all _ init h hu j e i)

variable [Cert.Pre_finite_inputs.Facts]

/-- THE PRECONDITION DECODED: a finiteness test that came out 1 says every entry of the three arrays is a real number. -/
theorem real_of_pre (a0 : FVec Ideal Cert.Pre_finite_inputs.S65536x5x128 .f32) (a1 : FVec Ideal Cert.Pre_finite_inputs.S256x128 .f32)
    (a2 : FVec Ideal Cert.Pre_finite_inputs.S_ .f32)
    (h : Cert.Pre_finite_inputs.fn (F := Ideal) a0 a1 a2 = fun _ => 1#1) :
    (∀ i, ∃ r : ℝ, a0 i = (r : EReal)) ∧ (∀ i, ∃ r : ℝ, a1 i = (r : EReal)) ∧ (∀ i, ∃ r : ℝ, a2 i = (r : EReal)) := by
  have h0 := congrFun h ValueIdx.ix0
  dsimp only [Cert.Pre_finite_inputs.fn] at h0
  obtain ⟨h01, h2⟩ := IntOp.andi_eq_one.1 h0
  obtain ⟨h0', h1⟩ := IntOp.andi_eq_one.1 h01
  have hc : ∀ i, constant (F := Ideal) Cert.Pre_finite_inputs.S_ .f32 0x7F800000#32 i = (⊤ : EReal) := fun i => by
    show FloatOps.ofBits (F := Ideal) .f32 0x7F800000#32 = _
    rw [Ideal.ofBits_def, inf_word]
  refine ⟨fun i => all_real a0 _ (fun k => ?_) _ _ _ _ h0' i, fun i => all_real a1 _ (fun k => ?_) _ _ _ _ h1 i,
    fun i => all_real a2 _ hc _ _ _ _ h2 i⟩
  · exact hc _
  · exact hc _

end Cert.Pool.Fin

end
-- ==== Proof.Claims.lean ====
/-
  The five claims.

  The three frames are the generated ones (the reference's is its generated run with the result dropped). The idealized
  kernel differs from the printed kernel by one named constant, the reciprocal `1/5`. At the extended reals the idealized
  kernel's result array is the function `Arr.G` of the three argument arrays (KernelArray.lean), and the reference's
  result at row `b`, column `d` is `Pool.rowR` of that row (RefRow.lean). Under the precondition every input entry is a
  real number (Finite.lean), the biased weights are then reals too, the word `5.0` is the real 5 and the named reciprocal
  the real 1/5, and over reals the two arrangements of a row agree (RowLaw.lean): the two results are equal entry by entry.
-/
import proofs.«162607_j47261820125624_2_alg».proof.Defs
import proofs.«162607_j47261820125624_2_alg».proof.Proof.Gen.Kernel.Frame
import proofs.«162607_j47261820125624_2_alg».proof.Proof.Gen.KernelIdeal.Frame
import proofs.«162607_j47261820125624_2_alg».proof.Proof.Gen.ReferenceIdeal.Run
import proofs.«162607_j47261820125624_2_alg».proof.Proof.Gen.ReferenceIdeal.Read
import proofs.«162607_j47261820125624_2_alg».proof.Proof.Gen.Pre_finite_inputs
import proofs.«162607_j47261820125624_2_alg».proof.Proof.KernelArray
import proofs.«162607_j47261820125624_2_alg».proof.Proof.RefRow
import proofs.«162607_j47261820125624_2_alg».proof.Proof.RowLaw
import proofs.«162607_j47261820125624_2_alg».proof.Proof.Finite
import Idealize.ShloMosaic.PureOps.IdealRules

noncomputable section

namespace Cert.Proof.PoolClaims

open Idealize.ShloMosaic Idealize.ShloMosaic.TcCoe Idealize.SL.Sem Idealize.ShloMosaic.ValueIdx

theorem frame_p : Cert.frame_Kernel := fun m ρ _ => Cert.Kernel.Gen.frame m ρ

theorem frame_pi : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The one rewrite between the printed kernel and its idealization: the constant `0.2` named `1/5`. -/
theorem preserves : Cert.preserves_Kernel_KernelIdeal :=
  IdealRules.named_const.statement Cert.KernelIdeal.κ "inv_5" .f32 0x3E4CCCCD#32 ((1 / 5 : ℝ) : EReal) rfl

/-- The kernel's named reciprocal is the real `1/5` at the extended reals. -/
theorem recip_eq : Cert.Pool.Ker.recip = ((1 / 5 : ℝ) : EReal) :=
  IdealRules.named_const.ideal_named_scalar _ _ _ _ rfl

/-- From arguments that agree and are finite, the idealized kernel's result array and the reference's are one array:
    row by row, `Pool.rowK` of the row with the reciprocal 1/5 against `Pool.rowR` of the row with the count 5. -/
theorem algebraic : Cert.algebraic_KernelIdeal_ReferenceIdeal := by
  intro m ρ m' ρ' hpre hagree
  refine ⟨fun c => Cert.Pool.Arr.G (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)), Cert.Pool.Arr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, (hagree c).1, (hagree c).2.1, (hagree c).2.2]
  obtain ⟨h0, h1, h2⟩ := Cert.Pool.Fin.real_of_pre _ _ _ (hpre c)
  funext i
  obtain ⟨b, d, rfl⟩ : ∃ (b : Fin 65536) (d : Fin 128), i = ix2 b d := ⟨i 0, i 1, eq_ix2 i⟩
  rw [Cert.Pool.Ref.ref_row]
  unfold Cert.Pool.Arr.G
  rw [Cert.Pool.ofBits_five, recip_eq]
  exact congrFun (Cert.Pool.rowR_eq_rowK _ _ _ (fun t k => h0 _) (fun k e => Cert.Pool.real_add (h1 _) (h2 _))) d

end Cert.Proof.PoolClaims

end
-- ==== Proof.lean ====
/- The proof of `Cert.Claim`: an attention pooling over five vectors per batch row — mean vector joined to each vector,
   one contraction with the biased weights, a softmax over the five scores column by column, the weighted sum, and a division
   by the larger of the pooled vector's Euclidean norm and a small constant — as a tiled kernel against its plain array
   reference, equal as extended reals over finite inputs.
   Proof/Spec.lean states one row's result in the kernel's and in the reference's arrangement; Proof/RowLaw.lean proves the two
   arrangements equal over reals; Proof/KernelRow.lean reads the kernel's block arithmetic at an entry and Proof/KernelArray.lean
   carries the blocks to the whole result array; Proof/RefRow.lean reads the reference at an entry; Proof/Finite.lean decodes
   the precondition; Proof/Claims.lean proves the five claims, assembled here behind the witnesses of the programs' stated facts. -/
import proofs.«162607_j47261820125624_2_alg».proof.Defs
import proofs.«162607_j47261820125624_2_alg».proof.Proof.Claims
import proofs.«162607_j47261820125624_2_alg».proof.Proof.Gen.Kernel
import proofs.«162607_j47261820125624_2_alg».proof.Proof.Gen.KernelIdeal
import proofs.«162607_j47261820125624_2_alg».proof.Proof.Gen.ReferenceIdeal
import proofs.«162607_j47261820125624_2_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    PoolClaims.frame_p, PoolClaims.frame_pi, PoolClaims.frame_ri, PoolClaims.preserves, PoolClaims.algebraic⟩

end Cert.Proof

end
